-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S512x1024 : Shape := ⟨2, ![512, 1024]⟩
abbrev S1x1024 : Shape := ⟨2, ![1, 1024]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S1x4096, .f32⟩
  | .hbm, ⟨21, _⟩ => ⟨S8192x1024, .f32⟩
  | .hbm, ⟨22, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S4096x1024_S1024x1024_0_0 : ∀ a, (![0, 0] : Fin 2 → Nat) a + S1024x1024.size a ≤ S4096x1024.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S4096x1024_S1024x1024_1024_0 : ∀ a, (![1024, 0] : Fin 2 → Nat) a + S1024x1024.size a ≤ S4096x1024.size a
  inb_S1x4096_S1x1024_0_1024 : ∀ a, (![0, 1024] : Fin 2 → Nat) a + S1x1024.size a ≤ S1x4096.size a
  inb_S4096x1024_S1024x1024_2048_0 : ∀ a, (![2048, 0] : Fin 2 → Nat) a + S1024x1024.size a ≤ S4096x1024.size a
  inb_S1x4096_S1x1024_0_2048 : ∀ a, (![0, 2048] : Fin 2 → Nat) a + S1x1024.size a ≤ S1x4096.size a
  inb_S4096x1024_S1024x1024_3072_0 : ∀ a, (![3072, 0] : Fin 2 → Nat) a + S1024x1024.size a ≤ S4096x1024.size a
  inb_S1x4096_S1x1024_0_3072 : ∀ a, (![0, 3072] : Fin 2 → Nat) a + S1x1024.size a ≤ S1x4096.size a
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S8192x4096, .f32⟩
  | .hbm, ⟨20, _⟩ => ⟨S1024x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.BitsEntry.lean ====
/-
  The frame of the LSTM-cell kernel, part 1: the program up to the pallas_call.

  @main first builds three arrays on the host — the four input-weight matrices stacked by rows and cast to bf16,
  the four recurrent-weight matrices likewise, the four bias vectors joined and laid out as one row — and then
  launches the kernel on a grid of 16 batch tiles. Here: what every buffer holds when the call is entered (the host
  operations applied to the launch memory), that no host operation writes an argument array, what block of its
  array each window shows at a grid point, and how the frame claim's post follows from the pipeline library's post.
-/
import proofs.«103098_j41059887349770_2_alg».proof.Proof.Gen.Kernel.Launch
import proofs.«103098_j41059887349770_2_alg».proof.Proof.Gen.Kernel.Skeleton
import proofs.«103098_j41059887349770_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the call is entered -/

/-- Core `c`'s buffers when the pallas_call is entered: the launch memory after the six host operations (three
    concatenations, two casts to bf16, one reshape). -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations before the call write only the concatenated arrays: argument 0 reaches the call as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 1 reaches the call as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 2 reaches the call as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 3 reaches the call as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 4 reaches the call as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 5 reaches the call as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 6 reaches the call as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 7 reaches the call as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 8 reaches the call as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 9 reaches the call as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 10 reaches the call as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 11 reaches the call as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 12 reaches the call as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 13 reaches the call as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 14 reaches the call as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## A window's block at a grid point -/

/-- Window `w`'s block at grid point `t`, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, whether the pipeline fetched it
    there or kept it from the point before (the block index has then not moved). -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every grid point, whether the pipeline fetched it
    there or kept it from the point before (the block index has then not moved). -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every grid point, whether the pipeline fetched it
    there or kept it from the point before (the block index has then not moved). -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every grid point, whether the pipeline fetched it
    there or kept it from the point before (the block index has then not moved). -/
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every grid point, whether the pipeline fetched it
    there or kept it from the point before (the block index has then not moved). -/
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every grid point, whether the pipeline fetched it
    there or kept it from the point before (the block index has then not moved). -/
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's post -/

/-- The batch inputs x, h, c are staged by windows 0–2, which never write back, and the twelve weight and bias
    arrays are touched by no window: in a state satisfying the pipeline library's post every argument is as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- So a run to that post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

end Cert.Kernel.Frm

end
-- ==== Proof.BitsBody.lean ====
/-
  The frame of the LSTM-cell kernel, part 2: one run of the kernel body.

  At a grid point the body reads its batch tile of x and h (512 rows), the four 1024-row slabs of each stacked weight
  matrix, the four 1024-lane pieces of the bias row, and its tile of c; it writes the tile of the new hidden state
  into window 6's buffer and the tile of the new cell state into window 7's buffer, each by one store that covers the
  whole buffer. So after the body each output buffer is a function of the six input blocks alone: `tileH`, `tileC`.
-/
import proofs.«103098_j41059887349770_2_alg».proof.Proof.BitsEntry

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole 512 × 1024 batch tile. -/
abbrev rTile : Rect S512x1024 := Rect.unit (s := S512x1024) ![0, 0] S512x1024.size inb_S512x1024_S512x1024_0_0
/-- Gate `g`'s 1024 rows of a stacked 4096 × 1024 weight matrix (g = input, forget, output, candidate). -/
abbrev rSlab0 : Rect S4096x1024 := Rect.unit (s := S4096x1024) ![0, 0] S1024x1024.size inb_S4096x1024_S1024x1024_0_0
abbrev rSlab1 : Rect S4096x1024 := Rect.unit (s := S4096x1024) ![1024, 0] S1024x1024.size inb_S4096x1024_S1024x1024_1024_0
abbrev rSlab2 : Rect S4096x1024 := Rect.unit (s := S4096x1024) ![2048, 0] S1024x1024.size inb_S4096x1024_S1024x1024_2048_0
abbrev rSlab3 : Rect S4096x1024 := Rect.unit (s := S4096x1024) ![3072, 0] S1024x1024.size inb_S4096x1024_S1024x1024_3072_0
/-- Gate `g`'s 1024 lanes of the 1 × 4096 bias row. -/
abbrev rBias0 : Rect S1x4096 := Rect.unit (s := S1x4096) ![0, 0] S1x1024.size inb_S1x4096_S1x1024_0_0
abbrev rBias1 : Rect S1x4096 := Rect.unit (s := S1x4096) ![0, 1024] S1x1024.size inb_S1x4096_S1x1024_0_1024
abbrev rBias2 : Rect S1x4096 := Rect.unit (s := S1x4096) ![0, 2048] S1x1024.size inb_S1x4096_S1x1024_0_2048
abbrev rBias3 : Rect S1x4096 := Rect.unit (s := S1x4096) ![0, 3072] S1x1024.size inb_S1x4096_S1x1024_0_3072

/-! ## What the body leaves in the two output buffers -/

/-- The new cell state's tile, from the blocks of x, h, c, the stacked weights and the bias row: the body's payload for
    the store into window 7's buffer, over the pieces the body loads. -/
def cellOut (x0 x1 x2 : Vec F S512x1024 .f32) (x3 x4 : Vec F S4096x1024 .bf16) (x5 : Vec F S1x4096 .f32) : FVec F S512x1024 .f32 :=
  k0_pay1 (k0_pay3 (View.ld x0 rTile)) (k0_pay4 (View.ld x1 rTile))
    (k0_pay5 (View.ld x0 rTile) (View.ld x1 rTile) (View.ld x3 rSlab0) (View.ld x4 rSlab0) (View.ld x5 rBias0))
    (k0_pay6 (View.ld x0 rTile) (View.ld x1 rTile) (View.ld x3 rSlab1) (View.ld x4 rSlab1) (View.ld x5 rBias1))
    (View.ld x3 rSlab3) (View.ld x4 rSlab3) (View.ld x5 rBias3) (View.ld x2 rTile)

/-- The new hidden state's tile likewise: the payload of the store into window 6's buffer. -/
def hiddenOut (x0 x1 x2 : Vec F S512x1024 .f32) (x3 x4 : Vec F S4096x1024 .bf16) (x5 : Vec F S1x4096 .f32) : FVec F S512x1024 .f32 :=
  k0_pay2 (k0_pay3 (View.ld x0 rTile)) (k0_pay4 (View.ld x1 rTile))
    (k0_pay5 (View.ld x0 rTile) (View.ld x1 rTile) (View.ld x3 rSlab0) (View.ld x4 rSlab0) (View.ld x5 rBias0))
    (k0_pay6 (View.ld x0 rTile) (View.ld x1 rTile) (View.ld x3 rSlab1) (View.ld x4 rSlab1) (View.ld x5 rBias1))
    (k0_pay7 (View.ld x3 rSlab2)) (k0_pay8 (View.ld x4 rSlab2)) (View.ld x5 rBias2)
    (View.ld x3 rSlab3) (View.ld x4 rSlab3) (View.ld x5 rBias3) (View.ld x2 rTile)

/-- Window 6's buffer after the body: its one store, over the whole buffer. -/
def tileH (x0 x1 x2 : Vec F S512x1024 .f32) (x3 x4 : Vec F S4096x1024 .bf16) (x5 : Vec F S1x4096 .f32) : Vec F S512x1024 .f32 :=
  View.canon [⟨rTile, hiddenOut x0 x1 x2 x3 x4 x5⟩]

/-- Window 7's buffer after the body: its one store, over the whole buffer. -/
def tileC (x0 x1 x2 : Vec F S512x1024 .f32) (x3 x4 : Vec F S4096x1024 .bf16) (x5 : Vec F S1x4096 .f32) : Vec F S512x1024 .f32 :=
  View.canon [⟨rTile, cellOut x0 x1 x2 x3 x4 x5⟩]

/-- One store through the whole-tile rectangle covers a 512 × 1024 buffer. -/
theorem tile_covered (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

/-! ## The body's triple -/

set_option maxHeartbeats 4000000 in
/-- The body on whole staging buffers — the six inputs' at contents `x0 … x5`, the two outputs' at anything — runs to a
    continuation that holds the inputs' as they were and the outputs' at `tileH` and `tileC` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S512x1024 .f32) (harg7 : arg7.IsWhole) (arg8 : Memref sig .tc .vmem S512x1024 .f32) (harg8 : arg8.IsWhole)
    (x0 x1 x2 : Vec F S512x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tileH x0 x1 x2 x3 x4 x5) ∗ owns (c : Thread nD τ) arg8 fullShare (tileC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covered _)
  iexists _; isplitr
  swap; · iexact H7
  ipureintro
  exact View.read_writes_eq_canon _ _ _ (tile_covered _)

end Cert.Kernel.Frm

end
-- ==== Proof.BitsRun.lean ====
/-
  The frame of the LSTM-cell kernel, part 3: the sixteen grid points and the whole run.

  The pipeline's proof data: every window's array is what the call finds; after the body at grid point `t` each input
  window's buffer still holds its block and the two output windows' buffers hold `tileH` / `tileC` of the six input
  blocks at `t`. The body obligation at a point is then the body's triple at those blocks, and the pipeline library's
  frame run gives the final memory: each output array assembled from what the points wrote back, every other
  buffer as the call found it.
-/
import proofs.«103098_j41059887349770_2_alg».proof.Proof.BitsBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- What each window's staging buffer holds after the body at grid point `t`, on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileH (iblk m c 0 t) (iblk m c 1 t) (iblk m c 2 t) (iblk m c 3 t) (iblk m c 4 t) (iblk m c 5 t)
    | ⟨7, _⟩ => tileC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = tileH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = tileC (iblk m c 0 t) (iblk m c 1 t) (iblk m c 2 t) (iblk m c 3 t) (iblk m c 4 t) (iblk m c 5 t) := by dsimp only [dats]

/-- Each input window's buffer holds its block when the body is called. -/
theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation at a grid point -/

/-- What the body is called with at point `t`: the invariant, nothing owed, and the eight staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any grid point: the inputs' buffers hold their blocks, so the body's triple applies at those blocks;
    the invariant and the core's obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every grid point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault, each array a window stages ending at what the
    points wrote back into it and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frm

end
-- ==== Proof.IdealEntry.lean ====
/-
  The frame of the LSTM-cell kernel, part 1: the program up to the pallas_call.

  @main first builds three arrays on the host — the four input-weight matrices stacked by rows and cast to bf16,
  the four recurrent-weight matrices likewise, the four bias vectors joined and laid out as one row — and then
  launches the kernel on a grid of 16 batch tiles. Here: what every buffer holds when the call is entered (the host
  operations applied to the launch memory), that no host operation writes an argument array, what block of its
  array each window shows at a grid point, and how the frame claim's post follows from the pipeline library's post.
-/
import proofs.«103098_j41059887349770_2_alg».proof.Proof.Gen.KernelIdeal.Launch
import proofs.«103098_j41059887349770_2_alg».proof.Proof.Gen.KernelIdeal.Skeleton
import proofs.«103098_j41059887349770_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the call is entered -/

/-- Core `c`'s buffers when the pallas_call is entered: the launch memory after the six host operations (three
    concatenations, two casts to bf16, one reshape). -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations before the call write only the concatenated arrays: argument 0 reaches the call as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 1 reaches the call as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 2 reaches the call as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 3 reaches the call as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 4 reaches the call as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 5 reaches the call as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 6 reaches the call as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 7 reaches the call as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 8 reaches the call as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 9 reaches the call as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 10 reaches the call as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 11 reaches the call as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 12 reaches the call as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 13 reaches the call as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- The host operations before the call write only the concatenated arrays: argument 14 reaches the call as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## A window's block at a grid point -/

/-- Window `w`'s block at grid point `t`, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, whether the pipeline fetched it
    there or kept it from the point before (the block index has then not moved). -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every grid point, whether the pipeline fetched it
    there or kept it from the point before (the block index has then not moved). -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every grid point, whether the pipeline fetched it
    there or kept it from the point before (the block index has then not moved). -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every grid point, whether the pipeline fetched it
    there or kept it from the point before (the block index has then not moved). -/
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every grid point, whether the pipeline fetched it
    there or kept it from the point before (the block index has then not moved). -/
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every grid point, whether the pipeline fetched it
    there or kept it from the point before (the block index has then not moved). -/
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's post -/

/-- The batch inputs x, h, c are staged by windows 0–2, which never write back, and the twelve weight and bias
    arrays are touched by no window: in a state satisfying the pipeline library's post every argument is as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- So a run to that post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

end Cert.KernelIdeal.Frm

end
-- ==== Proof.IdealBody.lean ====
/-
  The frame of the LSTM-cell kernel, part 2: one run of the kernel body.

  At a grid point the body reads its batch tile of x and h (512 rows), the four 1024-row slabs of each stacked weight
  matrix, the four 1024-lane pieces of the bias row, and its tile of c; it writes the tile of the new hidden state
  into window 6's buffer and the tile of the new cell state into window 7's buffer, each by one store that covers the
  whole buffer. So after the body each output buffer is a function of the six input blocks alone: `tileH`, `tileC`.
-/
import proofs.«103098_j41059887349770_2_alg».proof.Proof.IdealEntry

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole 512 × 1024 batch tile. -/
abbrev rTile : Rect S512x1024 := Rect.unit (s := S512x1024) ![0, 0] S512x1024.size inb_S512x1024_S512x1024_0_0
/-- Gate `g`'s 1024 rows of a stacked 4096 × 1024 weight matrix (g = input, forget, output, candidate). -/
abbrev rSlab0 : Rect S4096x1024 := Rect.unit (s := S4096x1024) ![0, 0] S1024x1024.size inb_S4096x1024_S1024x1024_0_0
abbrev rSlab1 : Rect S4096x1024 := Rect.unit (s := S4096x1024) ![1024, 0] S1024x1024.size inb_S4096x1024_S1024x1024_1024_0
abbrev rSlab2 : Rect S4096x1024 := Rect.unit (s := S4096x1024) ![2048, 0] S1024x1024.size inb_S4096x1024_S1024x1024_2048_0
abbrev rSlab3 : Rect S4096x1024 := Rect.unit (s := S4096x1024) ![3072, 0] S1024x1024.size inb_S4096x1024_S1024x1024_3072_0
/-- Gate `g`'s 1024 lanes of the 1 × 4096 bias row. -/
abbrev rBias0 : Rect S1x4096 := Rect.unit (s := S1x4096) ![0, 0] S1x1024.size inb_S1x4096_S1x1024_0_0
abbrev rBias1 : Rect S1x4096 := Rect.unit (s := S1x4096) ![0, 1024] S1x1024.size inb_S1x4096_S1x1024_0_1024
abbrev rBias2 : Rect S1x4096 := Rect.unit (s := S1x4096) ![0, 2048] S1x1024.size inb_S1x4096_S1x1024_0_2048
abbrev rBias3 : Rect S1x4096 := Rect.unit (s := S1x4096) ![0, 3072] S1x1024.size inb_S1x4096_S1x1024_0_3072

/-! ## What the body leaves in the two output buffers -/

/-- The new cell state's tile, from the blocks of x, h, c, the stacked weights and the bias row: the body's payload for
    the store into window 7's buffer, over the pieces the body loads. -/
def cellOut (x0 x1 x2 : Vec F S512x1024 .f32) (x3 x4 : Vec F S4096x1024 .bf16) (x5 : Vec F S1x4096 .f32) : FVec F S512x1024 .f32 :=
  k0_pay1 (k0_pay3 (View.ld x0 rTile)) (k0_pay4 (View.ld x1 rTile))
    (k0_pay5 (View.ld x0 rTile) (View.ld x1 rTile) (View.ld x3 rSlab0) (View.ld x4 rSlab0) (View.ld x5 rBias0))
    (k0_pay6 (View.ld x0 rTile) (View.ld x1 rTile) (View.ld x3 rSlab1) (View.ld x4 rSlab1) (View.ld x5 rBias1))
    (View.ld x3 rSlab3) (View.ld x4 rSlab3) (View.ld x5 rBias3) (View.ld x2 rTile)

/-- The new hidden state's tile likewise: the payload of the store into window 6's buffer. -/
def hiddenOut (x0 x1 x2 : Vec F S512x1024 .f32) (x3 x4 : Vec F S4096x1024 .bf16) (x5 : Vec F S1x4096 .f32) : FVec F S512x1024 .f32 :=
  k0_pay2 (k0_pay3 (View.ld x0 rTile)) (k0_pay4 (View.ld x1 rTile))
    (k0_pay5 (View.ld x0 rTile) (View.ld x1 rTile) (View.ld x3 rSlab0) (View.ld x4 rSlab0) (View.ld x5 rBias0))
    (k0_pay6 (View.ld x0 rTile) (View.ld x1 rTile) (View.ld x3 rSlab1) (View.ld x4 rSlab1) (View.ld x5 rBias1))
    (k0_pay7 (View.ld x3 rSlab2)) (k0_pay8 (View.ld x4 rSlab2)) (View.ld x5 rBias2)
    (View.ld x3 rSlab3) (View.ld x4 rSlab3) (View.ld x5 rBias3) (View.ld x2 rTile)

/-- Window 6's buffer after the body: its one store, over the whole buffer. -/
def tileH (x0 x1 x2 : Vec F S512x1024 .f32) (x3 x4 : Vec F S4096x1024 .bf16) (x5 : Vec F S1x4096 .f32) : Vec F S512x1024 .f32 :=
  View.canon [⟨rTile, hiddenOut x0 x1 x2 x3 x4 x5⟩]

/-- Window 7's buffer after the body: its one store, over the whole buffer. -/
def tileC (x0 x1 x2 : Vec F S512x1024 .f32) (x3 x4 : Vec F S4096x1024 .bf16) (x5 : Vec F S1x4096 .f32) : Vec F S512x1024 .f32 :=
  View.canon [⟨rTile, cellOut x0 x1 x2 x3 x4 x5⟩]

/-- One store through the whole-tile rectangle covers a 512 × 1024 buffer. -/
theorem tile_covered (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

/-! ## The body's triple -/

set_option maxHeartbeats 4000000 in
/-- The body on whole staging buffers — the six inputs' at contents `x0 … x5`, the two outputs' at anything — runs to a
    continuation that holds the inputs' as they were and the outputs' at `tileH` and `tileC` of the inputs'. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S512x1024 .f32) (harg7 : arg7.IsWhole) (arg8 : Memref sig .tc .vmem S512x1024 .f32) (harg8 : arg8.IsWhole)
    (x0 x1 x2 : Vec F S512x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tileH x0 x1 x2 x3 x4 x5) ∗ owns (c : Thread nD τ) arg8 fullShare (tileC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covered _)
  iexists _; isplitr
  swap; · iexact H7
  ipureintro
  exact View.read_writes_eq_canon _ _ _ (tile_covered _)

end Cert.KernelIdeal.Frm

end
-- ==== Proof.IdealRun.lean ====
/-
  The frame of the LSTM-cell kernel, part 3: the sixteen grid points and the whole run.

  The pipeline's proof data: every window's array is what the call finds; after the body at grid point `t` each input
  window's buffer still holds its block and the two output windows' buffers hold `tileH` / `tileC` of the six input
  blocks at `t`. The body obligation at a point is then the body's triple at those blocks, and the pipeline library's
  frame run gives the final memory: each output array assembled from what the points wrote back, every other
  buffer as the call found it.
-/
import proofs.«103098_j41059887349770_2_alg».proof.Proof.IdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- What each window's staging buffer holds after the body at grid point `t`, on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileH (iblk m c 0 t) (iblk m c 1 t) (iblk m c 2 t) (iblk m c 3 t) (iblk m c 4 t) (iblk m c 5 t)
    | ⟨7, _⟩ => tileC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = tileH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = tileC (iblk m c 0 t) (iblk m c 1 t) (iblk m c 2 t) (iblk m c 3 t) (iblk m c 4 t) (iblk m c 5 t) := by dsimp only [dats]

/-- Each input window's buffer holds its block when the body is called. -/
theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation at a grid point -/

/-- What the body is called with at point `t`: the invariant, nothing owed, and the eight staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any grid point: the inputs' buffers hold their blocks, so the body's triple applies at those blocks;
    the invariant and the core's obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every grid point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault, each array a window stages ending at what the
    points wrote back into it and every other buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frm

end
-- ==== Proof.LstmSpec.lean ====
/-
  One step of an LSTM cell over the extended reals, as a function of the argument arrays.

  The four gates' weight matrices arrive stacked by rows (input, forget, output, candidate: 4 × 1024 rows) and the four
  bias vectors joined into one of 4096 entries; gate `g` owns rows `g·1024 … g·1024 + 1023`. For batch row `p` and
  hidden unit `q` the gate's pre-activation is
      Σ_k x[p,k]·W[o+q,k]  +  Σ_k h[p,k]·U[o+q,k]  +  b[o+q]          (o the gate's first row),
  the input, forget and output gates pass it through the logistic function and the candidate through tanh, and
      c'[p,q] = f·c[p,q] + i·g,      h'[p,q] = o·tanh(c'[p,q]).
  Both programs compute exactly these expressions, in this order of operations; nothing here needs the entries finite.
-/
import Idealize.ShloMosaic.PureOps.Ideal
import Idealize.ShloMosaic.Lib.ValueIdx

noncomputable section

namespace Cert.LstmSpec

open Idealize.ShloMosaic Idealize.ShloMosaic.ValueIdx

/-- A batch array: 8192 rows of 1024. -/
abbrev Batch : Shape := ⟨2, ![8192, 1024]⟩
/-- Four 1024 × 1024 matrices stacked by rows. -/
abbrev Stack : Shape := ⟨2, ![4096, 1024]⟩
/-- Four bias vectors joined. -/
abbrev Joined : Shape := ⟨1, ![4096]⟩

/-- Row `o + q` of a stacked array, for a gate whose rows start at `o`. -/
abbrev gateRow (o : Nat) (ho : o + 1024 ≤ 4096) (q : Fin 1024) : Fin 4096 := ⟨o + q.val, by omega⟩

/-- The pre-activation of the gate whose rows start at `o`, at batch row `p` and hidden unit `q`. -/
def pre (x h : Batch.Idx → EReal) (W U : Stack.Idx → EReal) (b : Joined.Idx → EReal)
    (o : Nat) (ho : o + 1024 ≤ 4096) (p : Fin 8192) (q : Fin 1024) : EReal :=
  (∑ k : Fin 1024, x (ix2 p k) * W (ix2 (gateRow o ho q) k)) + (∑ k : Fin 1024, h (ix2 p k) * U (ix2 (gateRow o ho q) k))
    + b (ix1 (gateRow o ho q))

/-- The new cell state: forget gate times the old cell state plus input gate times candidate. -/
def newCell (x h c : Batch.Idx → EReal) (W U : Stack.Idx → EReal) (b : Joined.Idx → EReal) (p : Fin 8192) (q : Fin 1024) : EReal :=
  Ideal.logistic (pre x h W U b 1024 (by omega) p q) * c (ix2 p q)
    + Ideal.logistic (pre x h W U b 0 (by omega) p q) * Ideal.tanh (pre x h W U b 3072 (by omega) p q)

/-- The new hidden state: output gate times tanh of the new cell state. -/
def newHidden (x h c : Batch.Idx → EReal) (W U : Stack.Idx → EReal) (b : Joined.Idx → EReal) (p : Fin 8192) (q : Fin 1024) : EReal :=
  Ideal.logistic (pre x h W U b 2048 (by omega) p q) * Ideal.tanh (newCell x h c W U b p q)

/-- The two result arrays. -/
def cellArray (x h c : Batch.Idx → EReal) (W U : Stack.Idx → EReal) (b : Joined.Idx → EReal) : Batch.Idx → EReal :=
  fun i => newCell x h c W U b (i 0) (i 1)
def hiddenArray (x h c : Batch.Idx → EReal) (W U : Stack.Idx → EReal) (b : Joined.Idx → EReal) : Batch.Idx → EReal :=
  fun i => newHidden x h c W U b (i 0) (i 1)

end Cert.LstmSpec

end
-- ==== Proof.IdealTile.lean ====
/-
  The kernel's tile at an entry.

  At a grid point the body holds a 512-row tile of x, h and c, the stacked weights whole, and the bias row whole. For
  gate `g` it multiplies the x tile by rows `g·1024 …` of the stacked input weights and the h tile by the same rows
  of the stacked recurrent weights — both products contract the second axis of both factors, so entry (r, q) pairs
  row r of the tile with row g·1024 + q of the weights —, adds the two products and then lanes `g·1024 …` of the
  bias row. Read at (r, q), with the tile's rows being rows `base + r` of the batch, these are LstmSpec's
  pre-activations at batch row `base + r`, and the body's two stores are its new cell and hidden state there. The
  casts to bf16 are the identity on the extended reals, and the matrix unit's zero accumulator adds nothing.
-/
import proofs.«103098_j41059887349770_2_alg».proof.Proof.IdealBody
import proofs.«103098_j41059887349770_2_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.KernelIdeal.Frm Cert.LstmSpec
open Idealize.ShloMosaic Idealize.ShloMosaic.ValueIdx

/-- The contraction every gate's two products use: [512, 1024] by [1024, 1024], second axis against second axis. -/
abbrev gateDot : DotDims S512x1024 S1024x1024 S512x1024 := dot_S512x1024_S1024x1024_S512x1024_1_1_0_0_n_n

theorem lhs_row (j : S512x1024.Idx) (k : gateDot.contr.Idx) : (gateDot.lhsIdx j k 0).val = (j 0).val := by
  unfold DotDims.lhsIdx
  rw [dif_neg (show ¬(0 : Fin S512x1024.rank) ∈ gateDot.lhsBatch by decide), dif_pos (show (0 : Fin S512x1024.rank) ∈ gateDot.lhsNonContracting by decide)]
  rfl
theorem lhs_col (j : S512x1024.Idx) (k : gateDot.contr.Idx) : (gateDot.lhsIdx j k 1).val = (k ⟨0, by decide⟩).val :=
  gateDot.lhsIdx_val_of_single rfl j k
theorem rhs_row (j : S512x1024.Idx) (k : gateDot.contr.Idx) : (gateDot.rhsIdx j k 0).val = (j 1).val := by
  unfold DotDims.rhsIdx
  rw [dif_neg (show ¬(0 : Fin S1024x1024.rank) ∈ gateDot.rhsBatch by decide), dif_pos (show (0 : Fin S1024x1024.rank) ∈ gateDot.rhsNonContracting by decide)]
  rfl
theorem rhs_col (j : S512x1024.Idx) (k : gateDot.contr.Idx) : (gateDot.rhsIdx j k 1).val = (k ⟨0, by decide⟩).val :=
  gateDot.rhsIdx_val_of_single rfl j k

/-- A gate's product into the zero accumulator, at entry (r, q): row r of the tile against row q of the slab. -/
theorem product_at (a : FVec Ideal S512x1024 .bf16) (w : FVec Ideal S1024x1024 .bf16) (r : Fin 512) (q : Fin 1024) :
    FloatOps.matmul gateDot none a w (constant (F := Ideal) S512x1024 .f32 0x00000000#32) (ix2 r q)
      = ∑ k : Fin 1024, a (ix2 r k) * w (ix2 q k) := by
  rw [Ideal.matmul_constant_zero_apply, ← Equiv.sum_comp (contrEquiv1 gateDot 1024 rfl rfl).symm]
  refine Finset.sum_congr rfl fun k _ => ?_
  have hk := contrEquiv1_symm_val gateDot 1024 rfl rfl k
  have el : gateDot.lhsIdx (ix2 r q) ((contrEquiv1 gateDot 1024 rfl rfl).symm k) = ix2 r k := funext fun ax => Fin.ext (by
    match ax with
    | ⟨0, _⟩ => exact lhs_row _ _
    | ⟨1, _⟩ => exact (lhs_col _ _).trans hk)
  have er : gateDot.rhsIdx (ix2 r q) ((contrEquiv1 gateDot 1024 rfl rfl).symm k) = ix2 q k := funext fun ax => Fin.ext (by
    match ax with
    | ⟨0, _⟩ => exact rhs_row _ _
    | ⟨1, _⟩ => exact (rhs_col _ _).trans hk)
  rw [el, er]

/-- A whole-tile load reads the buffer. -/
theorem tile_read (X : Vec Ideal S512x1024 .f32) : View.ld X rTile = X :=
  View.ld_unit_zero (S := S512x1024) (funext fun a => by fin_cases a <;> rfl) _ X

/-- A load of gate 0's slab reads rows 0 + q of the stacked matrix. -/
theorem slab0_read (X : Vec Ideal S4096x1024 .bf16) (q k : Fin 1024) :
    View.ld X rSlab0 (ix2 q k) = X (ix2 (gateRow 0 (by omega) q) k) :=
  congrArg X (funext fun ax => Fin.ext (by
    match ax with
    | ⟨0, _⟩ => show 0 + 1 * q.val = 0 + q.val; omega
    | ⟨1, _⟩ => show 0 + 1 * k.val = k.val; omega))
/-- A load of gate 0's bias lanes reads lanes 0 + q of the bias row. -/
theorem bias0_read (X : Vec Ideal S1x4096 .f32) (u : Fin 1) (q : Fin 1024) :
    View.ld X rBias0 (ix2 u q) = X (ix2 (0 : Fin 1) (gateRow 0 (by omega) q)) :=
  congrArg X (funext fun ax => Fin.ext (by
    match ax with
    | ⟨0, _⟩ => show 0 + 1 * u.val = 0; omega
    | ⟨1, _⟩ => show 0 + 1 * q.val = 0 + q.val; omega))
/-- A load of gate 1's slab reads rows 1024 + q of the stacked matrix. -/
theorem slab1_read (X : Vec Ideal S4096x1024 .bf16) (q k : Fin 1024) :
    View.ld X rSlab1 (ix2 q k) = X (ix2 (gateRow 1024 (by omega) q) k) :=
  congrArg X (funext fun ax => Fin.ext (by
    match ax with
    | ⟨0, _⟩ => show 1024 + 1 * q.val = 1024 + q.val; omega
    | ⟨1, _⟩ => show 0 + 1 * k.val = k.val; omega))
/-- A load of gate 1's bias lanes reads lanes 1024 + q of the bias row. -/
theorem bias1_read (X : Vec Ideal S1x4096 .f32) (u : Fin 1) (q : Fin 1024) :
    View.ld X rBias1 (ix2 u q) = X (ix2 (0 : Fin 1) (gateRow 1024 (by omega) q)) :=
  congrArg X (funext fun ax => Fin.ext (by
    match ax with
    | ⟨0, _⟩ => show 0 + 1 * u.val = 0; omega
    | ⟨1, _⟩ => show 1024 + 1 * q.val = 1024 + q.val; omega))
/-- A load of gate 2's slab reads rows 2048 + q of the stacked matrix. -/
theorem slab2_read (X : Vec Ideal S4096x1024 .bf16) (q k : Fin 1024) :
    View.ld X rSlab2 (ix2 q k) = X (ix2 (gateRow 2048 (by omega) q) k) :=
  congrArg X (funext fun ax => Fin.ext (by
    match ax with
    | ⟨0, _⟩ => show 2048 + 1 * q.val = 2048 + q.val; omega
    | ⟨1, _⟩ => show 0 + 1 * k.val = k.val; omega))
/-- A load of gate 2's bias lanes reads lanes 2048 + q of the bias row. -/
theorem bias2_read (X : Vec Ideal S1x4096 .f32) (u : Fin 1) (q : Fin 1024) :
    View.ld X rBias2 (ix2 u q) = X (ix2 (0 : Fin 1) (gateRow 2048 (by omega) q)) :=
  congrArg X (funext fun ax => Fin.ext (by
    match ax with
    | ⟨0, _⟩ => show 0 + 1 * u.val = 0; omega
    | ⟨1, _⟩ => show 2048 + 1 * q.val = 2048 + q.val; omega))
/-- A load of gate 3's slab reads rows 3072 + q of the stacked matrix. -/
theorem slab3_read (X : Vec Ideal S4096x1024 .bf16) (q k : Fin 1024) :
    View.ld X rSlab3 (ix2 q k) = X (ix2 (gateRow 3072 (by omega) q) k) :=
  congrArg X (funext fun ax => Fin.ext (by
    match ax with
    | ⟨0, _⟩ => show 3072 + 1 * q.val = 3072 + q.val; omega
    | ⟨1, _⟩ => show 0 + 1 * k.val = k.val; omega))
/-- A load of gate 3's bias lanes reads lanes 3072 + q of the bias row. -/
theorem bias3_read (X : Vec Ideal S1x4096 .f32) (u : Fin 1) (q : Fin 1024) :
    View.ld X rBias3 (ix2 u q) = X (ix2 (0 : Fin 1) (gateRow 3072 (by omega) q)) :=
  congrArg X (funext fun ax => Fin.ext (by
    match ax with
    | ⟨0, _⟩ => show 0 + 1 * u.val = 0; omega
    | ⟨1, _⟩ => show 3072 + 1 * q.val = 3072 + q.val; omega))

/-! ## One gate's sum at an entry -/

/-- The two products and the broadcast bias piece, added in the body's order, at entry (r, q). -/
theorem gate_sum_at (xa ha : FVec Ideal S512x1024 .bf16) (wx wh : FVec Ideal S1024x1024 .bf16) (bb : FVec Ideal S1x1024 .f32)
    (r : Fin 512) (q : Fin 1024) :
    addf (addf (FloatOps.matmul gateDot none xa wx (constant (F := Ideal) S512x1024 .f32 0x00000000#32))
        (FloatOps.matmul gateDot none ha wh (constant (F := Ideal) S512x1024 .f32 0x00000000#32)))
      (broadcastTo S512x1024 bb broadcasts_S1x1024_S512x1024) (ix2 r q)
    = (∑ k : Fin 1024, xa (ix2 r k) * wx (ix2 q k)) + (∑ k : Fin 1024, ha (ix2 r k) * wh (ix2 q k)) + bb (ix2 (0 : Fin 1) q) := by
  rw [addf_apply, addf_apply, product_at, product_at, broadcastTo_1b_ab_apply]

/-- The casts of the x and h tiles to bf16 change nothing. -/
theorem pay3_at (v0 : Vec Ideal S512x1024 .f32) (i : S512x1024.Idx) : k0_pay3 v0 i = v0 i := rfl
theorem pay4_at (v2 : Vec Ideal S512x1024 .f32) (i : S512x1024.Idx) : k0_pay4 v2 i = v2 i := rfl
theorem pay7_eq (v : Vec Ideal S1024x1024 .bf16) : k0_pay7 v = v := by unfold k0_pay7; exact shapeCast_self _ _
theorem pay8_eq (v : Vec Ideal S1024x1024 .bf16) : k0_pay8 v = v := by unfold k0_pay8; exact shapeCast_self _ _

/-- The input gate's tile at an entry: the logistic function of the gate's sum. -/
theorem pay5_at (v0 v2 : Vec Ideal S512x1024 .f32) (v4 v6 : Vec Ideal S1024x1024 .bf16) (v8 : Vec Ideal S1x1024 .f32)
    (r : Fin 512) (q : Fin 1024) :
    k0_pay5 v0 v2 v4 v6 v8 (ix2 r q)
      = Ideal.logistic ((∑ k : Fin 1024, v0 (ix2 r k) * v4 (ix2 q k)) + (∑ k : Fin 1024, v2 (ix2 r k) * v6 (ix2 q k)) + v8 (ix2 (0 : Fin 1) q)) := by
  unfold k0_pay5
  simp only [shapeCast_self]
  exact congrArg Ideal.logistic (gate_sum_at (k0_pay3 v0) (k0_pay4 v2) v4 v6 v8 r q)

/-- The forget gate's tile at an entry. -/
theorem pay6_at (v0 v2 : Vec Ideal S512x1024 .f32) (v16 v18 : Vec Ideal S1024x1024 .bf16) (v20 : Vec Ideal S1x1024 .f32)
    (r : Fin 512) (q : Fin 1024) :
    k0_pay6 v0 v2 v16 v18 v20 (ix2 r q)
      = Ideal.logistic ((∑ k : Fin 1024, v0 (ix2 r k) * v16 (ix2 q k)) + (∑ k : Fin 1024, v2 (ix2 r k) * v18 (ix2 q k)) + v20 (ix2 (0 : Fin 1) q)) := by
  unfold k0_pay6
  simp only [shapeCast_self]
  exact congrArg Ideal.logistic (gate_sum_at (k0_pay3 v0) (k0_pay4 v2) v16 v18 v20 r q)

/-- The new cell state's tile at an entry, from the two gate tiles, the candidate's operands and the old cell tile. -/
theorem pay1_at (v1 v3 : FVec Ideal S512x1024 .bf16) (v15 v27 : FVec Ideal S512x1024 .f32) (v40 v42 : Vec Ideal S1024x1024 .bf16)
    (v44 : Vec Ideal S1x1024 .f32) (v52 : Vec Ideal S512x1024 .f32) (r : Fin 512) (q : Fin 1024) :
    k0_pay1 v1 v3 v15 v27 v40 v42 v44 v52 (ix2 r q)
      = v27 (ix2 r q) * v52 (ix2 r q) + v15 (ix2 r q)
          * Ideal.tanh ((∑ k : Fin 1024, v1 (ix2 r k) * v40 (ix2 q k)) + (∑ k : Fin 1024, v3 (ix2 r k) * v42 (ix2 q k)) + v44 (ix2 (0 : Fin 1) q)) := by
  unfold k0_pay1
  simp only [shapeCast_self]
  exact congrArg (fun z => v27 (ix2 r q) * v52 (ix2 r q) + v15 (ix2 r q) * Ideal.tanh z) (gate_sum_at v1 v3 v40 v42 v44 r q)

/-- The new hidden state's tile at an entry: the output gate times tanh of the new cell state. -/
theorem pay2_at (v1 v3 : FVec Ideal S512x1024 .bf16) (v15 v27 : FVec Ideal S512x1024 .f32) (v29 v31 : FVec Ideal S1024x1024 .bf16)
    (v32 : Vec Ideal S1x1024 .f32) (v40 v42 : Vec Ideal S1024x1024 .bf16)
    (v44 : Vec Ideal S1x1024 .f32) (v52 : Vec Ideal S512x1024 .f32) (r : Fin 512) (q : Fin 1024) :
    k0_pay2 v1 v3 v15 v27 v29 v31 v32 v40 v42 v44 v52 (ix2 r q)
      = Ideal.logistic ((∑ k : Fin 1024, v1 (ix2 r k) * v29 (ix2 q k)) + (∑ k : Fin 1024, v3 (ix2 r k) * v31 (ix2 q k)) + v32 (ix2 (0 : Fin 1) q))
          * Ideal.tanh (k0_pay1 v1 v3 v15 v27 v40 v42 v44 v52 (ix2 r q)) := by
  unfold k0_pay2
  simp only [shapeCast_self]
  exact congrArg (fun z => Ideal.logistic z * Ideal.tanh (k0_pay1 v1 v3 v15 v27 v40 v42 v44 v52 (ix2 r q))) (gate_sum_at v1 v3 v29 v31 v32 r q)

/-! ## The two stores at an entry, against the batch arrays -/

/-- A gate's sum over a tile is the pre-activation of LstmSpec once each factor is read off the batch arrays, the
    stacked weights and the joined bias: tile row r is batch row `row r`, slab row q is stacked row `o + q`. -/
theorem pre_of_reads (a0 a1 : S512x1024.Idx → EReal) (wa wb : S1024x1024.Idx → EReal) (bb : S1x1024.Idx → EReal)
    (X H : Batch.Idx → EReal) (W U : Stack.Idx → EReal) (b : Joined.Idx → EReal) (row : Fin 512 → Fin 8192)
    (o : Nat) (ho : o + 1024 ≤ 4096) (r : Fin 512) (q : Fin 1024)
    (ha0 : ∀ k, a0 (ix2 r k) = X (ix2 (row r) k)) (ha1 : ∀ k, a1 (ix2 r k) = H (ix2 (row r) k))
    (hwa : ∀ k, wa (ix2 q k) = W (ix2 (gateRow o ho q) k)) (hwb : ∀ k, wb (ix2 q k) = U (ix2 (gateRow o ho q) k))
    (hb : bb (ix2 (0 : Fin 1) q) = b (ix1 (gateRow o ho q))) :
    (∑ k : Fin 1024, a0 (ix2 r k) * wa (ix2 q k)) + (∑ k : Fin 1024, a1 (ix2 r k) * wb (ix2 q k)) + bb (ix2 (0 : Fin 1) q)
      = pre X H W U b o ho (row r) q := by
  unfold pre
  rw [hb, Finset.sum_congr rfl (fun k _ => by rw [ha0 k, hwa k] : ∀ k ∈ Finset.univ, a0 (ix2 r k) * wa (ix2 q k) = X (ix2 (row r) k) * W (ix2 (gateRow o ho q) k)),
    Finset.sum_congr rfl (fun k _ => by rw [ha1 k, hwb k] : ∀ k ∈ Finset.univ, a1 (ix2 r k) * wb (ix2 q k) = H (ix2 (row r) k) * U (ix2 (gateRow o ho q) k))]

section Against

variable (x0 x1 x2 : Vec Ideal S512x1024 .f32) (x3 x4 : Vec Ideal S4096x1024 .bf16) (x5 : Vec Ideal S1x4096 .f32)
  (X H C : Batch.Idx → EReal) (W U : Stack.Idx → EReal) (b : Joined.Idx → EReal) (row : Fin 512 → Fin 8192)
  (h0 : ∀ r k, x0 (ix2 r k) = X (ix2 (row r) k)) (h1 : ∀ r k, x1 (ix2 r k) = H (ix2 (row r) k))
  (h2 : ∀ r k, x2 (ix2 r k) = C (ix2 (row r) k))
  (h3 : ∀ g k, x3 (ix2 g k) = W (ix2 g k)) (h4 : ∀ g k, x4 (ix2 g k) = U (ix2 g k))
  (h5 : ∀ g, x5 (ix2 (0 : Fin 1) g) = b (ix1 g))

include h0 h1 h2 h3 h4 h5

/-- The store into window 7's buffer, at entry (r, q), is the new cell state at batch row `row r`, unit q. -/
theorem cellOut_at (r : Fin 512) (q : Fin 1024) :
    cellOut x0 x1 x2 x3 x4 x5 (ix2 r q) = newCell X H C W U b (row r) q := by
  have a0 : ∀ k, View.ld x0 rTile (ix2 r k) = X (ix2 (row r) k) := fun k => by rw [tile_read]; exact h0 r k
  have a1 : ∀ k, View.ld x1 rTile (ix2 r k) = H (ix2 (row r) k) := fun k => by rw [tile_read]; exact h1 r k
  have a0' : ∀ k, k0_pay3 (View.ld x0 rTile) (ix2 r k) = X (ix2 (row r) k) := a0
  have a1' : ∀ k, k0_pay4 (View.ld x1 rTile) (ix2 r k) = H (ix2 (row r) k) := a1
  unfold cellOut
  rw [pay1_at, pay5_at, pay6_at,
    pre_of_reads _ _ _ _ _ X H W U b row 1024 (by omega) r q a0 a1
      (fun k => (slab1_read x3 q k).trans (h3 _ _)) (fun k => (slab1_read x4 q k).trans (h4 _ _)) ((bias1_read x5 0 q).trans (h5 _)),
    pre_of_reads _ _ _ _ _ X H W U b row 0 (by omega) r q a0 a1
      (fun k => (slab0_read x3 q k).trans (h3 _ _)) (fun k => (slab0_read x4 q k).trans (h4 _ _)) ((bias0_read x5 0 q).trans (h5 _)),
    pre_of_reads _ _ _ _ _ X H W U b row 3072 (by omega) r q a0' a1'
      (fun k => (slab3_read x3 q k).trans (h3 _ _)) (fun k => (slab3_read x4 q k).trans (h4 _ _)) ((bias3_read x5 0 q).trans (h5 _)),
    tile_read x2, h2]
  rfl

/-- The store into window 6's buffer, at entry (r, q), is the new hidden state there. -/
theorem hiddenOut_at (r : Fin 512) (q : Fin 1024) :
    hiddenOut x0 x1 x2 x3 x4 x5 (ix2 r q) = newHidden X H C W U b (row r) q := by
  have hc := cellOut_at x0 x1 x2 x3 x4 x5 X H C W U b row h0 h1 h2 h3 h4 h5 r q
  unfold cellOut at hc
  have a0' : ∀ k, k0_pay3 (View.ld x0 rTile) (ix2 r k) = X (ix2 (row r) k) := fun k => by
    show View.ld x0 rTile (ix2 r k) = _; rw [tile_read]; exact h0 r k
  have a1' : ∀ k, k0_pay4 (View.ld x1 rTile) (ix2 r k) = H (ix2 (row r) k) := fun k => by
    show View.ld x1 rTile (ix2 r k) = _; rw [tile_read]; exact h1 r k
  unfold hiddenOut
  rw [pay2_at, hc, pay7_eq, pay8_eq,
    pre_of_reads _ _ _ _ _ X H W U b row 2048 (by omega) r q a0' a1'
      (fun k => (slab2_read x3 q k).trans (h3 _ _)) (fun k => (slab2_read x4 q k).trans (h4 _ _)) ((bias2_read x5 0 q).trans (h5 _))]
  rfl

end Against

end Cert.KernelIdeal.Tile

end
-- ==== Proof.IdealValue.lean ====
/-
  What the kernel leaves in its two result arrays.

  The stacked weights and the bias row the call finds are the host's concatenations of the argument arrays (the casts to
  bf16 being the identity on the extended reals, the reshape of the joined bias to one row a relabelling). Grid point t
  stages rows 512·t … 512·t + 511 of x, h and c and the whole of the stacked arrays, and writes back rows 512·t … of both
  results; by the tile lemmas what it writes back is the corresponding block of LstmSpec's new hidden state and new cell
  state. The sixteen blocks tile the 8192 rows, so after the run each result array is that function of the arguments.
-/
import proofs.«103098_j41059887349770_2_alg».proof.Proof.IdealRun
import proofs.«103098_j41059887349770_2_alg».proof.Proof.IdealTile
import Idealize.ShloMosaic.Lib.StableHlo.Run
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Frm Cert.KernelIdeal.Tile Cert.LstmSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The stacked arrays the call finds -/

/-- The four input-weight matrices stacked by rows. -/
def stackW (c : Dev nD) : Stack.Idx → EReal :=
  concatenate S4096x1024 0 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩]
    concatenates_S1024x1024_S1024x1024_S1024x1024_S1024x1024_S4096x1024_d0
/-- The four recurrent-weight matrices stacked by rows. -/
def stackU (c : Dev nD) : Stack.Idx → EReal :=
  concatenate S4096x1024 0 [⟨S1024x1024, m ((c : Thread nD τ).loc main_arg5)⟩, ⟨S1024x1024, m ((c : Thread nD τ).loc main_arg8)⟩, ⟨S1024x1024, m ((c : Thread nD τ).loc main_arg11)⟩, ⟨S1024x1024, m ((c : Thread nD τ).loc main_arg14)⟩]
    concatenates_S1024x1024_S1024x1024_S1024x1024_S1024x1024_S4096x1024_d0
/-- The four bias vectors joined. -/
def joinedB (c : Dev nD) : Joined.Idx → EReal :=
  concatenate S4096 0 [⟨S1024, m ((c : Thread nD τ).loc main_arg4)⟩, ⟨S1024, m ((c : Thread nD τ).loc main_arg7)⟩, ⟨S1024, m ((c : Thread nD τ).loc main_arg10)⟩, ⟨S1024, m ((c : Thread nD τ).loc main_arg13)⟩]
    concatenates_S1024_S1024_S1024_S1024_S4096_d0

/-- Window 3's array: the stacked input weights (cast to bf16: the same extended reals). -/
theorem found_W (c : Dev nD) : (V m c main_v1 : S4096x1024.Idx → EReal) = stackW m c := by
  dsimp only [V, hostOps0]
  after_results
  rfl

/-- Window 4's array: the stacked recurrent weights. -/
theorem found_U (c : Dev nD) : (V m c main_v3 : S4096x1024.Idx → EReal) = stackU m c := by
  dsimp only [V, hostOps0]
  after_results
  dsimp only [Matrix.cons_val_zero, Matrix.cons_val_one]
  repeat (first
    | (rw [unary_result_ne]; rotate_left; decide)
    | (rw [nary_result_ne]; rotate_left; decide))
  rfl

/-- Window 5's array: the joined bias as one row. -/
theorem found_b (c : Dev nD) : (V m c main_v5 : S1x4096.Idx → EReal) = shapeCast S1x4096 (joinedB m c) shapeCasts_S4096_S1x4096 := by
  dsimp only [V, hostOps0]
  after_results
  dsimp only [Matrix.cons_val_zero, Matrix.cons_val_one]
  repeat (first
    | (rw [unary_result_ne]; rotate_left; decide)
    | (rw [nary_result_ne]; rotate_left; decide))
  rfl

/-! ## The blocks at a grid point -/

theorem zero_offsets : (![0, 0] : Fin 2 → Nat) = fun _ => 0 := funext fun a => by fin_cases a <;> rfl

/-- The printed index maps, window by window: block (row, column) of each window at a grid point. -/
structure IndexMaps (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = t.val ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = t.val ∧ win0_6.index t (1 : Fin 2) = 0
  w7 : win0_7.index t (0 : Fin 2) = t.val ∧ win0_7.index t (1 : Fin 2) = 0

/-- The batch windows and the result windows sit at block row t, the resident windows at block 0: decided over the
    sixteen grid points. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem index_maps (t : Fin cfg0.N) : IndexMaps t := by
  obtain ⟨h0, h1, h2, h3, h4, h5, h6, h7⟩ := index_facts t
  exact ⟨h0, h1, h2, h3, h4, h5, h6, h7⟩

/-- The batch row that row r of point t's tile is. -/
def tileRow (t : Fin cfg0.N) (r : Fin 512) : Fin 8192 :=
  ⟨t.val * 512 + r.val, by have ht : t.val < 16 := lt_of_lt_of_eq t.isLt (N_0 : cfg0.N = 16)
                           have := r.isLt; omega⟩

/-- Window 0's block at point t: rows 512·t … of argument 0. -/
theorem block0 (c : Dev nD) (t : Fin cfg0.N) (r : Fin 512) (k : Fin 1024) :
    (iblk m c 0 t : S512x1024.Idx → EReal) (ix2 r k) = (m ((c : Thread nD τ).loc main_arg0) : Batch.Idx → EReal) (ix2 (tileRow t r) k) := by
  have e := index_maps t
  show (V m c main_arg0 : Batch.Idx → EReal) (((cfg0.win 0).blk t).view.emb (ix2 r k)) = _
  rw [V_main_arg0]
  refine congrArg (m ((c : Thread nD τ).loc main_arg0) : Batch.Idx → EReal) (funext fun a => Fin.ext ?_)
  match a with
  | ⟨0, _⟩ =>
    show win0_0.index t (0 : Fin 2) * 512 + 1 * r.val = t.val * 512 + r.val
    rw [e.w0.1]; omega
  | ⟨1, _⟩ =>
    show win0_0.index t (1 : Fin 2) * 1024 + 1 * k.val = k.val
    rw [e.w0.2]; omega

/-- Window 1's block at point t: rows 512·t … of argument 1. -/
theorem block1 (c : Dev nD) (t : Fin cfg0.N) (r : Fin 512) (k : Fin 1024) :
    (iblk m c 1 t : S512x1024.Idx → EReal) (ix2 r k) = (m ((c : Thread nD τ).loc main_arg1) : Batch.Idx → EReal) (ix2 (tileRow t r) k) := by
  have e := index_maps t
  show (V m c main_arg1 : Batch.Idx → EReal) (((cfg0.win 1).blk t).view.emb (ix2 r k)) = _
  rw [V_main_arg1]
  refine congrArg (m ((c : Thread nD τ).loc main_arg1) : Batch.Idx → EReal) (funext fun a => Fin.ext ?_)
  match a with
  | ⟨0, _⟩ =>
    show win0_1.index t (0 : Fin 2) * 512 + 1 * r.val = t.val * 512 + r.val
    rw [e.w1.1]; omega
  | ⟨1, _⟩ =>
    show win0_1.index t (1 : Fin 2) * 1024 + 1 * k.val = k.val
    rw [e.w1.2]; omega

/-- Window 2's block at point t: rows 512·t … of argument 2. -/
theorem block2 (c : Dev nD) (t : Fin cfg0.N) (r : Fin 512) (k : Fin 1024) :
    (iblk m c 2 t : S512x1024.Idx → EReal) (ix2 r k) = (m ((c : Thread nD τ).loc main_arg2) : Batch.Idx → EReal) (ix2 (tileRow t r) k) := by
  have e := index_maps t
  show (V m c main_arg2 : Batch.Idx → EReal) (((cfg0.win 2).blk t).view.emb (ix2 r k)) = _
  rw [V_main_arg2]
  refine congrArg (m ((c : Thread nD τ).loc main_arg2) : Batch.Idx → EReal) (funext fun a => Fin.ext ?_)
  match a with
  | ⟨0, _⟩ =>
    show win0_2.index t (0 : Fin 2) * 512 + 1 * r.val = t.val * 512 + r.val
    rw [e.w2.1]; omega
  | ⟨1, _⟩ =>
    show win0_2.index t (1 : Fin 2) * 1024 + 1 * k.val = k.val
    rw [e.w2.2]; omega

/-- Window 3's block at any point: the whole of the stacked array. -/
theorem block3 (c : Dev nD) (t : Fin cfg0.N) (g : Fin 4096) (k : Fin 1024) :
    (iblk m c 3 t : S4096x1024.Idx → EReal) (ix2 g k) = stackW m c (ix2 g k) := by
  have e := index_maps t
  show (V m c main_v1 : S4096x1024.Idx → EReal) (((cfg0.win 3).blk t).view.emb (ix2 g k)) = _
  rw [found_W]
  refine congrArg (stackW m c) (funext fun a => Fin.ext ?_)
  match a with
  | ⟨0, _⟩ =>
    show win0_3.index t (0 : Fin 2) * 4096 + 1 * g.val = g.val
    rw [e.w3.1]; omega
  | ⟨1, _⟩ =>
    show win0_3.index t (1 : Fin 2) * 1024 + 1 * k.val = k.val
    rw [e.w3.2]; omega

/-- Window 4's block at any point: the whole of the stacked array. -/
theorem block4 (c : Dev nD) (t : Fin cfg0.N) (g : Fin 4096) (k : Fin 1024) :
    (iblk m c 4 t : S4096x1024.Idx → EReal) (ix2 g k) = stackU m c (ix2 g k) := by
  have e := index_maps t
  show (V m c main_v3 : S4096x1024.Idx → EReal) (((cfg0.win 4).blk t).view.emb (ix2 g k)) = _
  rw [found_U]
  refine congrArg (stackU m c) (funext fun a => Fin.ext ?_)
  match a with
  | ⟨0, _⟩ =>
    show win0_4.index t (0 : Fin 2) * 4096 + 1 * g.val = g.val
    rw [e.w4.1]; omega
  | ⟨1, _⟩ =>
    show win0_4.index t (1 : Fin 2) * 1024 + 1 * k.val = k.val
    rw [e.w4.2]; omega

/-- Window 5's block at any point: the bias row, lane g being entry g of the joined bias. -/
theorem block5 (c : Dev nD) (t : Fin cfg0.N) (g : Fin 4096) :
    (iblk m c 5 t : S1x4096.Idx → EReal) (ix2 (0 : Fin 1) g) = joinedB m c (ix1 g) := by
  have e := index_maps t
  show (V m c main_v5 : S1x4096.Idx → EReal) (((cfg0.win 5).blk t).view.emb (ix2 (0 : Fin 1) g)) = _
  rw [found_b]
  have hi : ((cfg0.win 5).blk t).view.emb (ix2 (0 : Fin 1) g) = ix2 (0 : Fin 1) g := funext fun a => Fin.ext (by
    match a with
    | ⟨0, _⟩ =>
      show win0_5.index t (0 : Fin 2) * 1 + 1 * 0 = 0
      rw [e.w5.1]
    | ⟨1, _⟩ =>
      show win0_5.index t (1 : Fin 2) * 4096 + 1 * g.val = g.val
      rw [e.w5.2]; omega)
  rw [hi]
  exact shapeCast_a_1a_apply (joinedB m c) shapeCasts_S4096_S1x4096 0 g

/-! ## The two result arrays -/

/-- The new hidden state as a function of the launch memory. -/
def hiddenOf (c : Dev nD) : Batch.Idx → EReal :=
  hiddenArray (m ((c : Thread nD τ).loc main_arg0)) (m ((c : Thread nD τ).loc main_arg1)) (m ((c : Thread nD τ).loc main_arg2))
    (stackW m c) (stackU m c) (joinedB m c)
/-- The new cell state as a function of the launch memory. -/
def cellOf (c : Dev nD) : Batch.Idx → EReal :=
  cellArray (m ((c : Thread nD τ).loc main_arg0)) (m ((c : Thread nD τ).loc main_arg1)) (m ((c : Thread nD τ).loc main_arg2))
    (stackW m c) (stackU m c) (joinedB m c)

/-- What point t writes back through window 6 is its block of the new hidden state. -/
theorem written6 (c : Dev nD) (t : Fin cfg0.N) :
    (dats m 0 c).flushed 6 t = ((cfg0.win 6).blk t).view.read (Elt Ideal) (hiddenOf m c) := by
  show (cfg0.win 6).cut (grid0.coords t) ((dats m 0 c).after 6 t) = _
  rw [after6]
  unfold tileH
  rw [View.canon_unit_zero zero_offsets]
  funext y
  have e := index_maps t
  have key := hiddenOut_at (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (stackW m c) (stackU m c) (joinedB m c) (tileRow t)
    (block0 m c t) (block1 m c t) (block2 m c t) (block3 m c t) (block4 m c t) (block5 m c t) (y 0) (y 1)
  have hrow : tileRow t (y 0) = (((cfg0.win 6).blk t).view.emb y) 0 :=
    Fin.ext (by show t.val * 512 + (y 0).val = win0_6.index t (0 : Fin 2) * 512 + 1 * (y 0).val; rw [e.w6.1]; omega)
  have hcol : y 1 = (((cfg0.win 6).blk t).view.emb y) 1 :=
    Fin.ext (by show (y 1).val = win0_6.index t (1 : Fin 2) * 1024 + 1 * (y 1).val; rw [e.w6.2]; omega)
  exact ((congrArg (hiddenOut (iblk m c 0 t) (iblk m c 1 t) (iblk m c 2 t) (iblk m c 3 t) (iblk m c 4 t) (iblk m c 5 t)) (eq_ix2 y)).trans key).trans
    (congrArg₂ (newHidden (m ((c : Thread nD τ).loc main_arg0)) (m ((c : Thread nD τ).loc main_arg1)) (m ((c : Thread nD τ).loc main_arg2))
    (stackW m c) (stackU m c) (joinedB m c)) hrow hcol)

/-- An index of the result array lies in point t's block of window 6 iff each coordinate lies in the block's range. -/
theorem mem_block6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6_0).slice (win0_6.rect t)).set ↔ _
  rw [View.set_slice_whole, Rect.mem_set_unit]
  exact Iff.rfl

/-- Row i lies in the block of point i / 512: the sixteen blocks tile the array. -/
theorem covered6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  have e := index_maps ⟨(i 0).val / 512, by rw [hN]; omega⟩
  refine ⟨⟨(i 0).val / 512, by rw [hN]; omega⟩, flush0_6 _, ?_⟩
  rw [mem_block6]
  intro a
  match a with
  | ⟨0, _⟩ =>
    show win0_6.index _ (0 : Fin 2) * 512 ≤ (i 0).val ∧ (i 0).val < win0_6.index _ (0 : Fin 2) * 512 + 512
    rw [e.w6.1]
    show (i 0).val / 512 * 512 ≤ (i 0).val ∧ (i 0).val < (i 0).val / 512 * 512 + 512
    omega
  | ⟨1, _⟩ =>
    show win0_6.index _ (1 : Fin 2) * 1024 ≤ (i 1).val ∧ (i 1).val < win0_6.index _ (1 : Fin 2) * 1024 + 1024
    rw [e.w6.2]
    omega

/-- After the run window 6's array is the new hidden state. -/
theorem final6 (c : Dev nD) : (dats m 0 c).arrAt 6 cfg0.N = hiddenOf m c :=
  (dats m 0 c).arrAt_eq_of_cover 6 (hiddenOf m c) (fun t _ => written6 m c t) covered6

/-- What point t writes back through window 7 is its block of the new cell state. -/
theorem written7 (c : Dev nD) (t : Fin cfg0.N) :
    (dats m 0 c).flushed 7 t = ((cfg0.win 7).blk t).view.read (Elt Ideal) (cellOf m c) := by
  show (cfg0.win 7).cut (grid0.coords t) ((dats m 0 c).after 7 t) = _
  rw [after7]
  unfold tileC
  rw [View.canon_unit_zero zero_offsets]
  funext y
  have e := index_maps t
  have key := cellOut_at (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (stackW m c) (stackU m c) (joinedB m c) (tileRow t)
    (block0 m c t) (block1 m c t) (block2 m c t) (block3 m c t) (block4 m c t) (block5 m c t) (y 0) (y 1)
  have hrow : tileRow t (y 0) = (((cfg0.win 7).blk t).view.emb y) 0 :=
    Fin.ext (by show t.val * 512 + (y 0).val = win0_7.index t (0 : Fin 2) * 512 + 1 * (y 0).val; rw [e.w7.1]; omega)
  have hcol : y 1 = (((cfg0.win 7).blk t).view.emb y) 1 :=
    Fin.ext (by show (y 1).val = win0_7.index t (1 : Fin 2) * 1024 + 1 * (y 1).val; rw [e.w7.2]; omega)
  exact ((congrArg (cellOut (iblk m c 0 t) (iblk m c 1 t) (iblk m c 2 t) (iblk m c 3 t) (iblk m c 4 t) (iblk m c 5 t)) (eq_ix2 y)).trans key).trans
    (congrArg₂ (newCell (m ((c : Thread nD τ).loc main_arg0)) (m ((c : Thread nD τ).loc main_arg1)) (m ((c : Thread nD τ).loc main_arg2))
    (stackW m c) (stackU m c) (joinedB m c)) hrow hcol)

/-- An index of the result array lies in point t's block of window 7 iff each coordinate lies in the block's range. -/
theorem mem_block7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_1).slice (win0_7.rect t)).set ↔ _
  rw [View.set_slice_whole, Rect.mem_set_unit]
  exact Iff.rfl

/-- Row i lies in the block of point i / 512: the sixteen blocks tile the array. -/
theorem covered7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  have e := index_maps ⟨(i 0).val / 512, by rw [hN]; omega⟩
  refine ⟨⟨(i 0).val / 512, by rw [hN]; omega⟩, flush0_7 _, ?_⟩
  rw [mem_block7]
  intro a
  match a with
  | ⟨0, _⟩ =>
    show win0_7.index _ (0 : Fin 2) * 512 ≤ (i 0).val ∧ (i 0).val < win0_7.index _ (0 : Fin 2) * 512 + 512
    rw [e.w7.1]
    show (i 0).val / 512 * 512 ≤ (i 0).val ∧ (i 0).val < (i 0).val / 512 * 512 + 512
    omega
  | ⟨1, _⟩ =>
    show win0_7.index _ (1 : Fin 2) * 1024 ≤ (i 1).val ∧ (i 1).val < win0_7.index _ (1 : Fin 2) * 1024 + 1024
    rw [e.w7.2]
    omega

/-- After the run window 7's array is the new cell state. -/
theorem final7 (c : Dev nD) : (dats m 0 c).arrAt 7 cfg0.N = cellOf m c :=
  (dats m 0 c).arrAt_eq_of_cover 7 (cellOf m c) (fun t _ => written7 m c t) covered7

/-! ## The run -/

/-- Every weakly fair execution of the idealized kernel program ends with the first result the new hidden state, the
    second the new cell state, and the fifteen arguments as launched. -/
theorem run : θ_run defs (onTc (τ := τ) (main (F := Ideal))) ⟨m, fun _ => 0, ρ⟩ fun r => ∀ c : Dev nD,
      r.2.mem ((c.tc : Thread nD τ).loc main_v6_0) = hiddenOf m c
      ∧ r.2.mem ((c.tc : Thread nD τ).loc main_v6_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final6 m c), ((h c).1 7).trans (final7 m c),
      args_kept m (dats m) (A_eq m) r h c⟩)
    (run_main m ρ)

end Cert.KernelIdeal.Val

end
-- ==== Proof.RefSpec.lean ====
/-
  The reference computes the LSTM step of LstmSpec.

  The reference multiplies x and h by the transposed stacked weights (one 8192 × 4096 product each), adds the two
  products and the broadcast bias, cuts the sum into four column bands of 1024, and applies 1/(1 + exp(−·)) to three
  bands and tanh to the fourth. Read at an output entry (p, q): column `o + q` of the big sum is the pre-activation of
  the gate whose rows start at `o` — the transpose turns "column o+q of Wᵀ" back into "row o+q of W" —, the expanded
  quotient is the logistic function (the literal 1.0 is the real number one), and the rest is the same products and sum.
  The stacked arrays stay the concatenations they are: they are never opened.
-/
import proofs.«103098_j41059887349770_2_alg».proof.Proof.Gen.ReferenceIdeal.Read
import proofs.«103098_j41059887349770_2_alg».proof.Proof.LstmSpec

noncomputable section

namespace Cert.RefSpec

open Cert.ReferenceIdeal Cert.ReferenceIdeal.Gen Cert.ReferenceIdeal.Read Cert.LstmSpec
open Idealize.ShloMosaic Idealize.ShloMosaic.ValueIdx

/-- The f32 word 0x3F800000 is the number one. -/
theorem word_one : Ideal.ofBits .f32 0x3F800000#32 = 1 := by
  simp [Ideal.ofBits, Ideal.ieee, -EReal.coe_mul]
  norm_num

/-- jnp's expansion of the sigmoid, with the literal ones, is the logistic function on every extended real. -/
theorem quotient_logistic (z : EReal) :
    Ideal.div (Ideal.ofBits .f32 0x3F800000#32) (Ideal.ofBits .f32 0x3F800000#32 + Ideal.exp (-z)) = Ideal.logistic z := by
  rw [word_one]; rfl

/-- The 8192 × 4096 sum of the two products and the bias, at any entry: row `j 0` of x and h against row `j 1` of
    the stacked weights, plus entry `j 1` of the joined bias. -/
theorem gates_at (x0 x1 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) (j : S8192x4096.Idx) :
    val_main_v10 (F := Ideal) x0 x1 x3 x4 x5 x6 x7 x8 x9 x10 x11 x12 x13 x14 j
      = (∑ k : Fin 1024, x0 (ix2 (j 0) k) * (val_main_v0 (F := Ideal) x3 x6 x9 x12) (ix2 (j 1) k))
        + (∑ k : Fin 1024, x1 (ix2 (j 0) k) * (val_main_v1 (F := Ideal) x5 x8 x11 x14) (ix2 (j 1) k))
        + (val_main_v2 (F := Ideal) x4 x7 x10 x13) (ix1 (j 1)) := by
  have el4 : ∀ k : Fin 1024, lidx_main_v4 j k = ix2 (j 0) k := fun k => funext fun a => by
    match a with | ⟨0, _⟩ => rfl | ⟨1, _⟩ => rfl
  have er4 : ∀ k : Fin 1024, idx_main_v3 (ridx_main_v4 j k) = ix2 (j 1) k := fun k => funext fun a => by
    match a with | ⟨0, _⟩ => rfl | ⟨1, _⟩ => rfl
  have el6 : ∀ k : Fin 1024, lidx_main_v6 j k = ix2 (j 0) k := fun k => funext fun a => by
    match a with | ⟨0, _⟩ => rfl | ⟨1, _⟩ => rfl
  have er6 : ∀ k : Fin 1024, idx_main_v5 (ridx_main_v6 j k) = ix2 (j 1) k := fun k => funext fun a => by
    match a with | ⟨0, _⟩ => rfl | ⟨1, _⟩ => rfl
  have eb : idx_main_v8 (idx_main_v9 j) = ix1 (j 1) := funext fun a => by
    match a with | ⟨0, _⟩ => rfl
  rw [val_main_v10_apply, val_main_v7_apply, val_main_v4_apply, val_main_v6_apply, val_main_v9_apply, val_main_v8_apply]
  simp only [val_main_v3_apply, val_main_v5_apply, el4, er4, el6, er6, eb, Ideal.addf_def]
  rfl

/-- Column band 0 … 1023 of that sum is the pre-activation of the gate whose rows start at 0. -/
theorem band_0 (x0 x1 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) (p : Fin 8192) (q : Fin 1024) :
    val_main_v11 (F := Ideal) x0 x1 x3 x4 x5 x6 x7 x8 x9 x10 x11 x12 x13 x14 (ix2 p q) = pre x0 x1 (val_main_v0 (F := Ideal) x3 x6 x9 x12) (val_main_v1 (F := Ideal) x5 x8 x11 x14) (val_main_v2 (F := Ideal) x4 x7 x10 x13) 0 (by omega) p q := by
  have e : idx_main_v11 (ix2 p q) = ix2 p (gateRow 0 (by omega) q) := funext fun a => by
    match a with
    | ⟨0, _⟩ => rfl
    | ⟨1, _⟩ => exact Fin.ext (Nat.zero_add q.val).symm
  rw [val_main_v11_apply, e, gates_at]
  rfl

/-- Column band 1024 … 2047 of that sum is the pre-activation of the gate whose rows start at 1024. -/
theorem band_1024 (x0 x1 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) (p : Fin 8192) (q : Fin 1024) :
    val_main_v12 (F := Ideal) x0 x1 x3 x4 x5 x6 x7 x8 x9 x10 x11 x12 x13 x14 (ix2 p q) = pre x0 x1 (val_main_v0 (F := Ideal) x3 x6 x9 x12) (val_main_v1 (F := Ideal) x5 x8 x11 x14) (val_main_v2 (F := Ideal) x4 x7 x10 x13) 1024 (by omega) p q := by
  have e : idx_main_v12 (ix2 p q) = ix2 p (gateRow 1024 (by omega) q) := funext fun a => by
    match a with
    | ⟨0, _⟩ => rfl
    | ⟨1, _⟩ => rfl
  rw [val_main_v12_apply, e, gates_at]
  rfl

/-- Column band 2048 … 3071 of that sum is the pre-activation of the gate whose rows start at 2048. -/
theorem band_2048 (x0 x1 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) (p : Fin 8192) (q : Fin 1024) :
    val_main_v13 (F := Ideal) x0 x1 x3 x4 x5 x6 x7 x8 x9 x10 x11 x12 x13 x14 (ix2 p q) = pre x0 x1 (val_main_v0 (F := Ideal) x3 x6 x9 x12) (val_main_v1 (F := Ideal) x5 x8 x11 x14) (val_main_v2 (F := Ideal) x4 x7 x10 x13) 2048 (by omega) p q := by
  have e : idx_main_v13 (ix2 p q) = ix2 p (gateRow 2048 (by omega) q) := funext fun a => by
    match a with
    | ⟨0, _⟩ => rfl
    | ⟨1, _⟩ => rfl
  rw [val_main_v13_apply, e, gates_at]
  rfl

/-- Column band 3072 … 4095 of that sum is the pre-activation of the gate whose rows start at 3072. -/
theorem band_3072 (x0 x1 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) (p : Fin 8192) (q : Fin 1024) :
    val_main_v14 (F := Ideal) x0 x1 x3 x4 x5 x6 x7 x8 x9 x10 x11 x12 x13 x14 (ix2 p q) = pre x0 x1 (val_main_v0 (F := Ideal) x3 x6 x9 x12) (val_main_v1 (F := Ideal) x5 x8 x11 x14) (val_main_v2 (F := Ideal) x4 x7 x10 x13) 3072 (by omega) p q := by
  have e : idx_main_v14 (ix2 p q) = ix2 p (gateRow 3072 (by omega) q) := funext fun a => by
    match a with
    | ⟨0, _⟩ => rfl
    | ⟨1, _⟩ => rfl
  rw [val_main_v14_apply, e, gates_at]
  rfl

/-- The reference's second result is the new cell state. -/
theorem cell_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) :
    val_main_v36 (F := Ideal) x0 x1 x2 x3 x4 x5 x6 x7 x8 x9 x10 x11 x12 x13 x14 = cellArray x0 x1 x2 (val_main_v0 (F := Ideal) x3 x6 x9 x12) (val_main_v1 (F := Ideal) x5 x8 x11 x14) (val_main_v2 (F := Ideal) x4 x7 x10 x13) := by
  funext i
  obtain ⟨p, q, rfl⟩ : ∃ (p : Fin 8192) (q : Fin 1024), i = ix2 p q := ⟨i 0, i 1, eq_ix2 i⟩
  rw [val_main_v36_apply, val_main_v34_apply, val_main_v35_apply, val_main_v26_apply, val_main_v20_apply, val_main_v33_apply,
    val_main_v24_apply, val_main_v18_apply, val_main_v22_apply, val_main_v16_apply, val_main_v21_apply, val_main_v15_apply,
    val_main_v25_apply, val_main_v23_apply, val_main_v19_apply, val_main_v17_apply,
    val_main_cst_2_apply, val_main_cst_1_apply, val_main_cst_0_apply, val_main_cst_apply,
    band_0, band_1024, band_3072]
  simp only [Ideal.addf_def, Ideal.mulf_def, Ideal.hostDivf_def, Ideal.hostUnary_exp_def, Ideal.hostNegf_def, Ideal.negf_def,
    Ideal.hostUnary_tanh_def, Ideal.ofBits_def, quotient_logistic]
  rfl

/-- The reference's first result is the new hidden state. -/
theorem hidden_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal)) (x14 : (⟨S1024x1024, .f32⟩ : BufTy).Contents (Elt Ideal)) :
    val_main_v38 (F := Ideal) x0 x1 x2 x3 x4 x5 x6 x7 x8 x9 x10 x11 x12 x13 x14 = hiddenArray x0 x1 x2 (val_main_v0 (F := Ideal) x3 x6 x9 x12) (val_main_v1 (F := Ideal) x5 x8 x11 x14) (val_main_v2 (F := Ideal) x4 x7 x10 x13) := by
  funext i
  have hc := congrFun (cell_eq x0 x1 x2 x3 x4 x5 x6 x7 x8 x9 x10 x11 x12 x13 x14) i
  obtain ⟨p, q, rfl⟩ : ∃ (p : Fin 8192) (q : Fin 1024), i = ix2 p q := ⟨i 0, i 1, eq_ix2 i⟩
  rw [val_main_v38_apply, val_main_v37_apply, hc, val_main_v32_apply, val_main_v30_apply, val_main_v28_apply, val_main_v27_apply,
    val_main_v31_apply, val_main_v29_apply, val_main_cst_4_apply, val_main_cst_3_apply, band_2048]
  simp only [Ideal.addf_def, Ideal.mulf_def, Ideal.hostDivf_def, Ideal.hostUnary_exp_def, Ideal.hostNegf_def, Ideal.negf_def,
    Ideal.hostUnary_tanh_def, Ideal.ofBits_def, quotient_logistic]
  rfl

end Cert.RefSpec

end
-- ==== Proof.lean ====
/-
  An LSTM cell step as one Pallas kernel against its jnp reference: the certificate's five claims.

  Both programs stack the four gates' weight matrices by rows and join the four biases; the reference then forms one
  8192 × 4096 array of pre-activations and cuts it into four column bands, the kernel forms each gate's 512 × 1024 tile
  from the matching 1024 rows of the stacked weights, on a grid of sixteen batch tiles. Over the extended reals both
  end with the same two arrays — LstmSpec's new hidden state and new cell state of the arguments —, the casts to bf16
  being the identity there and the sums being taken in the same order; no entry needs to be finite.

  The three frames: the kernel's at the word level and at the extended reals by the same argument (the body covers
  both result tiles by one store each and reads everything else), the reference's from its run. The idealization
  rewrote no operation, so `preserves` has nothing to state.
-/
import proofs.«103098_j41059887349770_2_alg».proof.Defs
import proofs.«103098_j41059887349770_2_alg».proof.Proof.Gen.Kernel
import proofs.«103098_j41059887349770_2_alg».proof.Proof.Gen.KernelIdeal
import proofs.«103098_j41059887349770_2_alg».proof.Proof.Gen.ReferenceIdeal
import proofs.«103098_j41059887349770_2_alg».proof.Proof.Gen.Pre_finite_inputs
import proofs.«103098_j41059887349770_2_alg».proof.Proof.Gen.ReferenceIdeal.Run
import proofs.«103098_j41059887349770_2_alg».proof.Proof.Gen.ReferenceIdeal.Read
import proofs.«103098_j41059887349770_2_alg».proof.Proof.BitsRun
import proofs.«103098_j41059887349770_2_alg».proof.Proof.IdealRun
import proofs.«103098_j41059887349770_2_alg».proof.Proof.IdealValue
import proofs.«103098_j41059887349770_2_alg».proof.Proof.RefSpec
import Idealize.ShloMosaic.Adequacy
import Idealize.ShloMosaic.Init

noncomputable section

namespace Cert.Proof

open Idealize.ShloMosaic Idealize.ShloMosaic.TcCoe Idealize.SL.Sem

/-- The kernel program at the word level runs to the end and leaves its arguments alone. -/
theorem frame_words : Cert.frame_Kernel := fun m ρ _ => Cert.Kernel.Frm.frame m ρ

/-- So does its reading over the extended reals. -/
theorem frame_ideal : Cert.frame_KernelIdeal := fun m ρ _ => Cert.KernelIdeal.Frm.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the fifteen arguments, the kernel's two result arrays and the reference's are the
    same functions of them: the new hidden state and the new cell state. -/
theorem algebraic : Cert.algebraic_KernelIdeal_ReferenceIdeal := by
  intro m ρ m' ρ' _ hagree
  refine ⟨fun c => Cert.KernelIdeal.Val.hiddenOf m c, fun c => Cert.KernelIdeal.Val.cellOf m c, Cert.KernelIdeal.Val.run m ρ, ?_⟩
  refine (θ_run Cert.ReferenceIdeal.defs _ _).mono (fun r h c => ?_) (Cert.ReferenceIdeal.Value.run (F := Ideal) m' ρ')
  obtain ⟨h38, h36, hargs⟩ := h c
  obtain ⟨a0, a1, a2, a3, a4, a5, a6, a7, a8, a9, a10, a11, a12, a13, a14⟩ := hagree c
  refine ⟨h38.trans ?_, h36.trans ?_, hargs⟩
  · rw [Cert.ReferenceIdeal.Read.val_main_v38_eq, Cert.RefSpec.hidden_eq, a0, a1, a2, a3, a4, a5, a6, a7, a8, a9, a10, a11, a12, a13, a14]
    rfl
  · rw [Cert.ReferenceIdeal.Read.val_main_v36_eq, Cert.RefSpec.cell_eq, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
